-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x512 : Shape := ⟨3, ![4, 200, 512]⟩
abbrev S4x100x512 : Shape := ⟨3, ![4, 100, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S_ : Shape := ⟨0, ![]⟩

class Facts : Prop where
  bcast_S_S4x200x512 : S_.BroadcastsInDim S4x200x512 (![] : Fin 0 → Fin S4x200x512.rank)
  reducesTo_S4x200x512_S_d0_1_2 : S4x200x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S2048x512 .f32) (main_arg7 : FVec F S2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_v33

def fn {F : FTy → Type} [FloatOps F] (main_arg0 : FVec F S4x200x512 .f32) (main_arg1 : FVec F S4x100x512 .f32) (main_arg2 : FVec F S512x512 .f32) (main_arg3 : FVec F S512 .f32) (main_arg4 : FVec F S512x512 .f32) (main_arg5 : FVec F S512 .f32) (main_arg6 : FVec F S2048x512 .f32) (main_arg7 : FVec F S2048 .f32) : IVec S_ 1 :=
  let main_v0 : FVec F S4x200x512 .f32 := Host.absf main_arg0
  let main_cst : FVec F S_ .f32 := constant S_ .f32 0x7F800000#32
  let main_v1 : FVec F S4x200x512 .f32 := broadcastInDim S4x200x512 ![] bcast_S_S4x200x512 main_cst
  let main_v2 : IVec S4x200x512 1 := cmpf .olt main_v0 main_v1
  let main_c : IVec S_ 1 := constantI S_ 1 1#1
  let main_v3 : IVec S_ 1 := (fun x v => Host.reduce IntOp.andi x v reducesTo_S4x200x512_S_d0_1_2 h_S_) main_v2 main_c
  let main_v4 : FVec F S4x100x512 .f32 := Host.absf main_arg1
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x200x512 : Shape := ⟨3, ![4, 200, 512]⟩
abbrev S4x100x512 : Shape := ⟨3, ![4, 100, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S800x512 : Shape := ⟨2, ![800, 512]⟩
abbrev S1x512 : Shape := ⟨2, ![1, 512]⟩
abbrev S400x512 : Shape := ⟨2, ![400, 512]⟩
abbrev S512x2048 : Shape := ⟨2, ![512, 2048]⟩
abbrev S4x200x100x2048 : Shape := ⟨4, ![4, 200, 100, 2048]⟩
abbrev S1x40x512 : Shape := ⟨3, ![1, 40, 512]⟩
abbrev S1x100x512 : Shape := ⟨3, ![1, 100, 512]⟩
abbrev S512x256 : Shape := ⟨2, ![512, 256]⟩
abbrev S256 : Shape := ⟨1, ![256]⟩
abbrev S1x40x100x256 : Shape := ⟨4, ![1, 40, 100, 256]⟩
abbrev S40x512 : Shape := ⟨2, ![40, 512]⟩
abbrev S100x512 : Shape := ⟨2, ![100, 512]⟩
abbrev S40x1x512 : Shape := ⟨3, ![40, 1, 512]⟩
abbrev S40x100x512 : Shape := ⟨3, ![40, 100, 512]⟩
abbrev S4000x512 : Shape := ⟨2, ![4000, 512]⟩
abbrev S4000x256 : Shape := ⟨2, ![4000, 256]⟩
abbrev S1x256 : Shape := ⟨2, ![1, 256]⟩
abbrev S40x100x256 : Shape := ⟨3, ![40, 100, 256]⟩

abbrev nBuf : Space → Nat
  | .hbm => 21
  | .vmem => 18
  | .smem => 0
  | _ => 0

abbrev bufTy : (tb : Table) → Fin (tcTables nBuf tb) → BufTy
  | .hbm, ⟨0, _⟩ => ⟨S4x200x512, .f32⟩
  | .hbm, ⟨1, _⟩ => ⟨S4x100x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x512, .f32⟩
  | .hbm, ⟨7, _⟩ => ⟨S2048, .f32⟩
  | .hbm, ⟨8, _⟩ => ⟨S800x512, .f32⟩
  | .hbm, ⟨9, _⟩ => ⟨S512x512, .f32⟩
  | .hbm, ⟨10, _⟩ => ⟨S512x512, .bf16⟩
  | .hbm, ⟨11, _⟩ => ⟨S800x512, .f32⟩
  | .hbm, ⟨12, _⟩ => ⟨S4x200x512, .f32⟩
  | .hbm, ⟨13, _⟩ => ⟨S400x512, .f32⟩
  | .hbm, ⟨14, _⟩ => ⟨S512x512, .f32⟩
  | .hbm, ⟨15, _⟩ => ⟨S512x512, .bf16⟩
  | .hbm, ⟨16, _⟩ => ⟨S400x512, .f32⟩
  | .hbm, ⟨17, _⟩ => ⟨S4x100x512, .f32⟩
  | .hbm, ⟨18, _⟩ => ⟨S512x2048, .f32⟩
  | .hbm, ⟨19, _⟩ => ⟨S512x2048, .bf16⟩
  | .hbm, ⟨20, _⟩ => ⟨S4x200x100x2048, .f32⟩
  | .local _ .vmem, ⟨0, _⟩ => ⟨S800x512, .f32⟩
  | .local _ .vmem, ⟨1, _⟩ => ⟨S512x512, .bf16⟩
  | .local _ .vmem, ⟨2, _⟩ => ⟨S512, .f32⟩
  | .local _ .vmem, ⟨3, _⟩ => ⟨S800x512, .f32⟩
  | .local _ .vmem, ⟨4, _⟩ => ⟨S400x512, .f32⟩
  | .local _ .vmem, ⟨5, _⟩ => ⟨S512x512, .bf16⟩
  | .local _ .vmem, ⟨6, _⟩ => ⟨S512, .f32⟩
  | .local _ .vmem, ⟨7, _⟩ => ⟨S400x512, .f32⟩
  | .local _ .vmem, ⟨8, _⟩ => ⟨S1x40x512, .f32⟩
  | .local _ .vmem, ⟨9, _⟩ => ⟨S1x40x512, .f32⟩
  | .local _ .vmem, ⟨10, _⟩ => ⟨S1x100x512, .f32⟩
  | .local _ .vmem, ⟨11, _⟩ => ⟨S1x100x512, .f32⟩
  | .local _ .vmem, ⟨12, _⟩ => ⟨S512x256, .bf16⟩
  | .local _ .vmem, ⟨13, _⟩ => ⟨S512x256, .bf16⟩
  | .local _ .vmem, ⟨14, _⟩ => ⟨S256, .f32⟩
  | .local _ .vmem, ⟨15, _⟩ => ⟨S256, .f32⟩
  | .local _ .vmem, ⟨16, _⟩ => ⟨S1x40x100x256, .f32⟩
  | .local _ .vmem, ⟨17, _⟩ => ⟨S1x40x100x256, .f32⟩
  | _, _ => ⟨S4x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S800x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S800x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S400x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S400x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨3, ![4, 5, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_3 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc2_transform_4 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage2_0 : Fin 2 → Memref sig .tc .vmem S1x40x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x100x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 2 → Memref sig .tc .vmem S1x40x100x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

class Facts₀ : Prop where
  shapeCasts_S4x200x512_S800x512 : S4x200x512.ShapeCasts S800x512
  transposes_S512x512_S512x512_1_0 : S512x512.Transposes [1, 0] S512x512
  bitsLt_bf16_f32 : FTy.bits .bf16 < FTy.bits .f32
  inb_S800x512_S800x512_0_0 : ∀ a, (![0, 0] : Fin 2 → Nat) a + S800x512.size a ≤ S800x512.size a
  h_S800x512 : 0 < S800x512.numel
  shapeCasts_S800x512_S800x512 : S800x512.ShapeCasts S800x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S800x512 : S1x512.Broadcasts S800x512
  shapeCasts_S800x512_S4x200x512 : S800x512.ShapeCasts S4x200x512
  shapeCasts_S4x100x512_S400x512 : S4x100x512.ShapeCasts S400x512
  inb_S400x512_S400x512_0_0 : ∀ a, (![0, 0] : Fin 2 → Nat) a + S400x512.size a ≤ S400x512.size a
  h_S400x512 : 0 < S400x512.numel
  shapeCasts_S400x512_S400x512 : S400x512.ShapeCasts S400x512
  broadcasts_S1x512_S400x512 : S1x512.Broadcasts S400x512
  shapeCasts_S400x512_S4x100x512 : S400x512.ShapeCasts S4x100x512
  transposes_S2048x512_S512x2048_1_0 : S2048x512.Transposes [1, 0] S512x2048
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S1x100x512_S1x100x512_0_0_0 : ∀ a, (![0, 0, 0] : Fin 3 → Nat) a + S1x100x512.size a ≤ S1x100x512.size a
  h_S1x100x512 : 0 < S1x100x512.numel
  shapeCasts_S1x100x512_S100x512 : S1x100x512.ShapeCasts S100x512
  shapeCasts_S40x512_S40x1x512 : S40x512.ShapeCasts S40x1x512
  shapeCasts_S100x512_S1x100x512 : S100x512.ShapeCasts S1x100x512
  broadcasts_S40x1x512_S40x100x512 : S40x1x512.Broadcasts S40x100x512
  broadcasts_S1x100x512_S40x100x512 : S1x100x512.Broadcasts S40x100x512
  shapeCasts_S40x100x512_S4000x512 : S40x100x512.ShapeCasts S4000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  shapeCasts_S4000x256_S40x100x256 : S4000x256.ShapeCasts S40x100x256
  inb_S1x40x100x256_S1x40x100x256_0_0_0_0 : ∀ a, (![0, 0, 0, 0] : Fin 4 → Nat) a + S1x40x100x256.size a ≤ S1x40x100x256.size a
  h_S1x40x100x256 : 0 < S1x40x100x256.numel
  shapeCasts_S1x40x100x256_S40x100x256 : S1x40x100x256.ShapeCasts S40x100x256
  shapeCasts_S40x100x256_S1x40x100x256 : S40x100x256.ShapeCasts S1x40x100x256
  dot_S800x512_S512x512_S800x512_1_0_0_1_n_n_wf : DotDims.WF S800x512 S512x512 S800x512 [1] [0] [0] [1] [] []
  dot_S400x512_S512x512_S400x512_1_0_0_1_n_n_wf : DotDims.WF S400x512 S512x512 S400x512 [1] [0] [0] [1] [] []
  dot_S4000x512_S512x256_S4000x256_1_0_0_1_n_n_wf : DotDims.WF S4000x512 S512x256 S4000x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S800x512.size a ≤ S800x512.size a
  hwx0_0 : ∀ i : grid0.Coords, EltTy.bits .f32 = 32 ∨ (Rect.block (s := S800x512) S800x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S800x512.size a ≤ S800x512.size a
  hwx0_3 : ∀ i : grid0.Coords, EltTy.bits .f32 = 32 ∨ (Rect.block (s := S800x512) S800x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S400x512.size a ≤ S400x512.size a
  hwx1_0 : ∀ i : grid1.Coords, EltTy.bits .f32 = 32 ∨ (Rect.block (s := S400x512) S400x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S400x512.size a ≤ S400x512.size a
  hwx1_3 : ∀ i : grid1.Coords, EltTy.bits .f32 = 32 ∨ (Rect.block (s := S400x512) S400x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x40x512.size a ≤ S4x200x512.size a
  hwx2_0 : ∀ i : grid2.Coords, EltTy.bits .f32 = 32 ∨ (Rect.block (s := S4x200x512) S1x40x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x100x512.size a ≤ S4x100x512.size a
  hwx2_1 : ∀ i : grid2.Coords, EltTy.bits .f32 = 32 ∨ (Rect.block (s := S4x100x512) S1x100x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x2048.size a
  hwx2_2 : ∀ i : grid2.Coords, EltTy.bits .bf16 = 32 ∨ (Rect.block (s := S512x2048) S512x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S2048.size a
  hwx2_3 : ∀ i : grid2.Coords, EltTy.bits .f32 = 32 ∨ (Rect.block (s := S2048) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x40x100x256.size a ≤ S4x200x100x2048.size a
  hwx2_4 : ∀ i : grid2.Coords, EltTy.bits .f32 = 32 ∨ (Rect.block (s := S4x200x100x2048) S1x40x100x256.size (cc2_transform_4 i) (hinb2_4 i)).WholeWords (EltTy.packing .f32)

variable [Facts₀]

def dot_S800x512_S512x512_S800x512_1_0_0_1_n_n : DotDims S800x512 S512x512 S800x512 where
  lhsContracting := [1]
  rhsContracting := [0]
  lhsNonContracting := [0]
  rhsNonContracting := [1]
  lhsBatch := []
  rhsBatch := []
  wf := dot_S800x512_S512x512_S800x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf

abbrev win0_0 : Pipeline.Window sig grid0 :=
  Pipeline.Window.ofSpec (Memref.whole main_v0) S800x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S800x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S400x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S400x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x40x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x100x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S512x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x40x100x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x200x512 : Shape := ⟨3, ![4, 200, 512]⟩
abbrev S4x100x512 : Shape := ⟨3, ![4, 100, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S1x1x512 : Shape := ⟨3, ![1, 1, 512]⟩
abbrev S4x200x1x512 : Shape := ⟨4, ![4, 200, 1, 512]⟩
abbrev S4x1x100x512 : Shape := ⟨4, ![4, 1, 100, 512]⟩
abbrev S4x200x100x512 : Shape := ⟨4, ![4, 200, 100, 512]⟩
abbrev S4x200x100x2048 : Shape := ⟨4, ![4, 200, 100, 2048]⟩
abbrev S1x1x1x2048 : Shape := ⟨4, ![1, 1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x200x512, .f32⟩
  | .hbm, ⟨1, _⟩ => ⟨S4x100x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x512, .f32⟩
  | .hbm, ⟨7, _⟩ => ⟨S2048, .f32⟩
  | .hbm, ⟨8, _⟩ => ⟨S4x200x512, .f32⟩
  | .hbm, ⟨9, _⟩ => ⟨S1x1x512, .f32⟩
  | .hbm, ⟨10, _⟩ => ⟨S4x200x512, .f32⟩
  | .hbm, ⟨11, _⟩ => ⟨S4x200x512, .f32⟩
  | .hbm, ⟨12, _⟩ => ⟨S4x100x512, .f32⟩
  | .hbm, ⟨13, _⟩ => ⟨S1x1x512, .f32⟩
  | .hbm, ⟨14, _⟩ => ⟨S4x100x512, .f32⟩
  | .hbm, ⟨15, _⟩ => ⟨S4x100x512, .f32⟩
  | .hbm, ⟨16, _⟩ => ⟨S4x200x1x512, .f32⟩
  | .hbm, ⟨17, _⟩ => ⟨S4x1x100x512, .f32⟩
  | .hbm, ⟨18, _⟩ => ⟨S4x200x100x512, .f32⟩
  | .hbm, ⟨19, _⟩ => ⟨S4x200x100x512, .f32⟩
  | .hbm, ⟨20, _⟩ => ⟨S4x200x100x512, .f32⟩
  | .hbm, ⟨21, _⟩ => ⟨S4x200x100x512, .f32⟩
  | .hbm, ⟨22, _⟩ => ⟨S4x200x100x2048, .f32⟩
  | .hbm, ⟨23, _⟩ => ⟨S1x1x1x2048, .f32⟩
  | .hbm, ⟨24, _⟩ => ⟨S4x200x100x2048, .f32⟩
  | .hbm, ⟨25, _⟩ => ⟨S4x200x100x2048, .f32⟩
  | _, _ => ⟨S4x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x200x512_0_1_2 : S1x1x512.BroadcastsInDim S4x200x512 (![0, 1, 2] : Fin 3 → Fin S4x200x512.rank)
  bcast_S1x1x512_S4x100x512_0_1_2 : S1x1x512.BroadcastsInDim S4x100x512 (![0, 1, 2] : Fin 3 → Fin S4x100x512.rank)
  bcast_S4x200x512_S4x200x1x512_0_1_3 : S4x200x512.BroadcastsInDim S4x200x1x512 (![0, 1, 3] : Fin 3 → Fin S4x200x1x512.rank)
  bcast_S4x100x512_S4x1x100x512_0_2_3 : S4x100x512.BroadcastsInDim S4x1x100x512 (![0, 2, 3] : Fin 3 → Fin S4x1x100x512.rank)
  bcast_S4x200x1x512_S4x200x100x512_0_1_2_3 : S4x200x1x512.BroadcastsInDim S4x200x100x512 (![0, 1, 2, 3] : Fin 4 → Fin S4x200x100x512.rank)
  bcast_S4x1x100x512_S4x200x100x512_0_1_2_3 : S4x1x100x512.BroadcastsInDim S4x200x100x512 (![0, 1, 2, 3] : Fin 4 → Fin S4x200x100x512.rank)
  bcast_S2048_S1x1x1x2048_3 : S2048.BroadcastsInDim S1x1x1x2048 (![3] : Fin 1 → Fin S1x1x1x2048.rank)
  bcast_S1x1x1x2048_S4x200x100x2048_0_1_2_3 : S1x1x1x2048.BroadcastsInDim S4x200x100x2048 (![0, 1, 2, 3] : Fin 4 → Fin S4x200x100x2048.rank)
  dot_S4x200x512_S512x512_S4x200x512_2_1_01_0_n_n_wf : DotDims.WF S4x200x512 S512x512 S4x200x512 [2] [1] [0, 1] [0] [] []
  dot_S4x100x512_S512x512_S4x100x512_2_1_01_0_n_n_wf : DotDims.WF S4x100x512 S512x512 S4x100x512 [2] [1] [0, 1] [0] [] []
  dot_S4x200x100x512_S2048x512_S4x200x100x2048_3_1_012_0_n_n_wf : DotDims.WF S4x200x100x512 S2048x512 S4x200x100x2048 [3] [1] [0, 1, 2] [0] [] []

variable [Facts₀]

def dot_S4x200x512_S512x512_S4x200x512_2_1_01_0_n_n : DotDims S4x200x512 S512x512 S4x200x512 where
  lhsContracting := [2]
  rhsContracting := [1]
  lhsNonContracting := [0, 1]
  rhsNonContracting := [0]
  lhsBatch := []
  rhsBatch := []
  wf := dot_S4x200x512_S512x512_S4x200x512_2_1_01_0_n_n_wf
def dot_S4x100x512_S512x512_S4x100x512_2_1_01_0_n_n : DotDims S4x100x512 S512x512 S4x100x512 where
  lhsContracting := [2]
  rhsContracting := [1]
  lhsNonContracting := [0, 1]
  rhsNonContracting := [0]
  lhsBatch := []
  rhsBatch := []
  wf := dot_S4x100x512_S512x512_S4x100x512_2_1_01_0_n_n_wf
def dot_S4x200x100x512_S2048x512_S4x200x100x2048_3_1_012_0_n_n : DotDims S4x200x100x512 S2048x512 S4x200x100x2048 where
  lhsContracting := [3]
  rhsContracting := [1]
  lhsNonContracting := [0, 1, 2]
  rhsNonContracting := [0]
  lhsBatch := []
  rhsBatch := []
  wf := dot_S4x200x100x512_S2048x512_S4x200x100x2048_3_1_012_0_n_n_wf

class Facts : Prop extends Facts₀ where

variable [Facts]
-- ==== Proof.WholeRun.lean ====
/-
  The run of the whole program with every buffer named at the end.

  The program is six segments — a stretch of host lines, the first launch, a stretch, the second launch, a stretch, the
  third launch — and each segment takes the thread from "every unscoped buffer holds the contents at this boundary" to
  the same statement at the next boundary.  Chaining them from the launch memory gives: every weakly fair execution
  terminates, nothing faults, and at the end every unscoped buffer holds the last boundary's contents.  The frame
  certificate reads only the argument arrays out of that final state; here the statement about every buffer is kept,
  so that the result array can be read out as well.
-/
import proofs.«158839_j84567906058998_1_alg».proof.Proof.Gen.KernelIdeal.Frame

set_option maxRecDepth 16384

noncomputable section

namespace Cert.KernelIdeal.JointValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, and in
    every final state each unscoped buffer of each core holds the contents of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    -- the segments' run is the program
    (fun c Q => by rw [main_run m ρ c])
    -- no launch is entered twice
    (by simp only [segs, Pipeline.Seg.pipes_host, Pipeline.Seg.pipes_region, Pipeline.Seg.pipes_nil]; decide)
    -- no core owes another anything at launch, and no core carries ghost state of its own
    (O₀ := 0) (hL := fun _ _ => rfl) (G := fun _ => iprop(emp))
    -- the launch element is the pipelines' own: their staging cells and launch tokens
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread state at the launch and at the return; each segment's exit state is the next one's entry state
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    -- the first state from what the launch deals each core: its unscoped buffers at the launch memory, its generator
    -- register, and the record that it owes nothing
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last state read against the final memory: every buffer held at the last boundary's contents is there
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.JointValue

end
-- ==== Proof.LibPlainProduct.lean ====
/-
  A block product of an a × K by a K × b array into the zero accumulator, one axis contracted, read at the entry
  (p, u) on the extended reals: the finite sum over k of lhs (p, k) · rhs (k, u).  The dimension record enters only
  through four facts about where it sends an output index and a contraction index; nothing here knows a program.
-/
import Idealize.ShloMosaic.Lib.ValueIdx
import Idealize.ShloMosaic.PureOps.Ideal.Laws

noncomputable section

open scoped BigOperators

namespace Cert.PlainProduct

open Idealize.ShloMosaic Idealize.ShloMosaic.ValueIdx

/-- With rows of the left operand following the output's rows, columns of the right operand following the output's
    columns, and the one contracted coordinate running along the left operand's columns and the right operand's
    rows, the product's entry (p, u) is the sum over that coordinate of the operands' products. -/
theorem matmul_zero_apply {a K b : ℕ} (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ .f32) (rhs : FVec Ideal ⟨2, ![K, b]⟩ .f32) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p u) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p u) ((contrEquiv1 D K hr hs).symm k) = ix2 k u := funext fun ax => Fin.ext (by
    match ax with
    | ⟨0, _⟩ => exact (hr0 _ _).trans hk
    | ⟨1, _⟩ => exact hr1 _ _)
  rw [el, er]

end Cert.PlainProduct

end
-- ==== Proof.ProjPayload.lean ====
/-
  The projection kernels' stored value at an entry.

  One launch stores, at row r and feature d of its output, the inner product of row r of its first operand with
  column d of its second (a product into the zero accumulator, the narrowing format changes being the identity on
  the extended reals), plus entry d of its third operand, which a row broadcast copies down every row.
-/
import proofs.«158839_j84567906058998_1_alg».proof.Proof.Gen.KernelIdeal.Skeleton
import proofs.«158839_j84567906058998_1_alg».proof.Proof.LibPlainProduct
import Idealize.ShloMosaic.Lib.Pipeline.Value
import Idealize.ShloMosaic.Lib.ValueLayout

noncomputable section

open scoped BigOperators

namespace Cert.KernelIdeal.JointValue

open Cert.KernelIdeal Cert.KernelIdeal.Gen Idealize.ShloMosaic Idealize.ShloMosaic.ValueIdx

/-- The 800-row product's dimension record sends an output index and a contraction index where a plain matrix
    product does. -/
theorem dot800_l0 (j : S800x512.Idx) (q : dot_S800x512_S512x512_S800x512_1_0_0_1_n_n.contr.Idx) :
    (dot_S800x512_S512x512_S800x512_1_0_0_1_n_n.lhsIdx j q 0).val = (j 0).val := by
  unfold DotDims.lhsIdx
  rw [dif_neg (show ¬(0 : Fin S800x512.rank) ∈ dot_S800x512_S512x512_S800x512_1_0_0_1_n_n.lhsBatch by decide),
    dif_pos (show (0 : Fin S800x512.rank) ∈ dot_S800x512_S512x512_S800x512_1_0_0_1_n_n.lhsNonContracting by decide)]
  rfl
theorem dot800_r1 (j : S800x512.Idx) (q : dot_S800x512_S512x512_S800x512_1_0_0_1_n_n.contr.Idx) :
    (dot_S800x512_S512x512_S800x512_1_0_0_1_n_n.rhsIdx j q 1).val = (j 1).val := by
  unfold DotDims.rhsIdx
  rw [dif_neg (show ¬(1 : Fin S512x512.rank) ∈ dot_S800x512_S512x512_S800x512_1_0_0_1_n_n.rhsBatch by decide),
    dif_pos (show (1 : Fin S512x512.rank) ∈ dot_S800x512_S512x512_S800x512_1_0_0_1_n_n.rhsNonContracting by decide)]
  rfl

/-- Entry (r, d) of what the encoder's projection launch stores. -/
theorem lin0_apply (x0 : Vec Ideal S800x512 .f32) (x1 : Vec Ideal S512x512 .bf16) (x2 : Vec Ideal S512 .f32)
    (r : Fin 800) (d : Fin 512) :
    k0_pay1 (F := Ideal) x0 x1 x2 (ix2 r d) = (∑ e : Fin 512, x0 (ix2 r e) * x1 (ix2 e d)) + x2 (ix1 d) := by
  unfold k0_pay1
  rw [addf_apply]
  refine congrArg₂ (· + ·) ?_ ?_
  · refine (Cert.PlainProduct.matmul_zero_apply dot_S800x512_S512x512_S800x512_1_0_0_1_n_n none rfl rfl
      dot800_l0 (fun j q => dot_S800x512_S512x512_S800x512_1_0_0_1_n_n.lhsIdx_val_of_single rfl j q)
      (fun j q => dot_S800x512_S512x512_S800x512_1_0_0_1_n_n.rhsIdx_val_of_single rfl j q) dot800_r1 _ _ r d).trans ?_
    refine Finset.sum_congr rfl fun e _ => ?_
    rw [truncf_apply, shapeCast_self, shapeCast_self]
  · rw [broadcastTo_1b_ab_apply, shapeCast_a_1a_apply]

/-- The 400-row product's dimension record likewise. -/
theorem dot400_l0 (j : S400x512.Idx) (q : dot_S400x512_S512x512_S400x512_1_0_0_1_n_n.contr.Idx) :
    (dot_S400x512_S512x512_S400x512_1_0_0_1_n_n.lhsIdx j q 0).val = (j 0).val := by
  unfold DotDims.lhsIdx
  rw [dif_neg (show ¬(0 : Fin S400x512.rank) ∈ dot_S400x512_S512x512_S400x512_1_0_0_1_n_n.lhsBatch by decide),
    dif_pos (show (0 : Fin S400x512.rank) ∈ dot_S400x512_S512x512_S400x512_1_0_0_1_n_n.lhsNonContracting by decide)]
  rfl
theorem dot400_r1 (j : S400x512.Idx) (q : dot_S400x512_S512x512_S400x512_1_0_0_1_n_n.contr.Idx) :
    (dot_S400x512_S512x512_S400x512_1_0_0_1_n_n.rhsIdx j q 1).val = (j 1).val := by
  unfold DotDims.rhsIdx
  rw [dif_neg (show ¬(1 : Fin S512x512.rank) ∈ dot_S400x512_S512x512_S400x512_1_0_0_1_n_n.rhsBatch by decide),
    dif_pos (show (1 : Fin S512x512.rank) ∈ dot_S400x512_S512x512_S400x512_1_0_0_1_n_n.rhsNonContracting by decide)]
  rfl

/-- Entry (r, d) of what the predictor's projection launch stores. -/
theorem lin1_apply (x0 : Vec Ideal S400x512 .f32) (x1 : Vec Ideal S512x512 .bf16) (x2 : Vec Ideal S512 .f32)
    (r : Fin 400) (d : Fin 512) :
    k1_pay1 (F := Ideal) x0 x1 x2 (ix2 r d) = (∑ e : Fin 512, x0 (ix2 r e) * x1 (ix2 e d)) + x2 (ix1 d) := by
  unfold k1_pay1
  rw [addf_apply]
  refine congrArg₂ (· + ·) ?_ ?_
  · refine (Cert.PlainProduct.matmul_zero_apply dot_S400x512_S512x512_S400x512_1_0_0_1_n_n none rfl rfl
      dot400_l0 (fun j q => dot_S400x512_S512x512_S400x512_1_0_0_1_n_n.lhsIdx_val_of_single rfl j q)
      (fun j q => dot_S400x512_S512x512_S400x512_1_0_0_1_n_n.rhsIdx_val_of_single rfl j q) dot400_r1 _ _ r d).trans ?_
    refine Finset.sum_congr rfl fun e _ => ?_
    rw [truncf_apply, shapeCast_self, shapeCast_self]
  · rw [broadcastTo_1b_ab_apply, shapeCast_a_1a_apply]

end Cert.KernelIdeal.JointValue

end
-- ==== Proof.ProjRegion.lean ====
/-
  What the two projection launches leave in their output arrays.

  Each launch has a grid of one point, and at that point every window's block is its whole array (every block index
  is zero).  So the one point reads the three operand arrays as the region finds them, and what it writes back is
  the whole output array: the launch's stored value as a function of those three arrays.
-/
import proofs.«158839_j84567906058998_1_alg».proof.Proof.Gen.KernelIdeal.Frame
import Idealize.ShloMosaic.Lib.Pipeline.Value

noncomputable section

namespace Cert.KernelIdeal.JointValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b)) (c : Dev nD)

theorem zero2 : (![0, 0] : Fin 2 → Nat) = fun _ => 0 := funext fun a => by fin_cases a <;> rfl
theorem zero1 : (![0] : Fin 1 → Nat) = fun _ => 0 := funext fun a => by fin_cases a <;> rfl

/-! ## The encoder's projection (the first launch) -/

/-- Every block index of the first launch is zero. -/
theorem encIdx : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 :=
  (by decide +kernel : ∀ t : Fin grid0.N, _)

/-- The point's blocks are the arrays themselves. -/
theorem encBlk0 (t : Fin cfg0.N) : iblk0 V c 0 t = V c main_v0 := by
  obtain ⟨e0, e1, -⟩ := encIdx t
  funext y
  show V c main_v0 (((cfg0.win 0).blk t).view.emb y) = V c main_v0 y
  refine congrArg _ (funext fun a => Fin.ext ?_)
  match a with
  | ⟨0, _⟩ => show win0_0.index t (0 : Fin 2) * 800 + 1 * (y 0).val = (y 0).val; rw [e0]; omega
  | ⟨1, _⟩ => show win0_0.index t (1 : Fin 2) * 512 + 1 * (y 1).val = (y 1).val; rw [e1]; omega
theorem encBlk1 (t : Fin cfg0.N) : iblk0 V c 1 t = V c main_v2 := by
  obtain ⟨-, -, e0, e1, -⟩ := encIdx t
  funext y
  show V c main_v2 (((cfg0.win 1).blk t).view.emb y) = V c main_v2 y
  refine congrArg _ (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega
theorem encBlk2 (t : Fin cfg0.N) : iblk0 V c 2 t = V c main_arg3 := by
  obtain ⟨-, -, -, -, e0, -⟩ := encIdx t
  funext y
  show V c main_arg3 (((cfg0.win 2).blk t).view.emb y) = V c main_arg3 y
  refine congrArg _ (funext fun a => Fin.ext ?_)
  match a with
  | ⟨0, _⟩ => show win0_2.index t (0 : Fin 1) * 512 + 1 * (y 0).val = (y 0).val; rw [e0]; omega

/-- What the point writes back is the stored value of the three arrays, read through the (whole) output block. -/
theorem encFlushed (t : Fin cfg0.N) :
    (dat0 V c).flushed 3 t = ((cfg0.win 3).blk t).view.read (Elt F) (k0_pay1 (V c main_v0) (V c main_v2) (V c main_arg3)) := by
  show (cfg0.win 3).cut (grid0.coords t) ((dat0 V c).after 3 t) = _
  rw [after0_3]
  unfold out0_3
  rw [View.canon_unit_zero zero2]
  simp only [View.ld_unit_zero (S := S800x512) zero2, View.ld_unit_zero (S := S512x512) zero2, View.ld_unit_zero (S := S512) zero1]
  rw [encBlk0, encBlk1, encBlk2]
  obtain ⟨-, -, -, -, -, e0, e1⟩ := encIdx t
  funext y
  show k0_pay1 (V c main_v0) (V c main_v2) (V c main_arg3) y = k0_pay1 (V c main_v0) (V c main_v2) (V c main_arg3) (((cfg0.win 3).blk t).view.emb y)
  refine congrArg _ (funext fun a => Fin.ext ?_)
  match a with
  | ⟨0, _⟩ => show (y 0).val = win0_3.index t (0 : Fin 2) * 800 + 1 * (y 0).val; rw [e0]; omega
  | ⟨1, _⟩ => show (y 1).val = win0_3.index t (1 : Fin 2) * 512 + 1 * (y 1).val; rw [e1]; omega

/-- The one point's block covers the output array. -/
theorem encCover (i : S800x512.Idx) :
    ∃ t : Fin cfg0.N, (cfg0.win 3).flush t = true ∧ i ∈ ((cfg0.win 3).blk t).view.set := by
  refine ⟨t0_0, flush0_3 t0_0, ?_⟩
  obtain ⟨-, -, -, -, -, e0, e1⟩ := encIdx t0_0
  show i ∈ ((View.whole main_v3).slice (win0_3.rect t0_0)).set
  rw [View.set_slice_whole, Rect.mem_set_unit]
  intro a
  match a with
  | ⟨0, _⟩ =>
    show win0_3.index t0_0 (0 : Fin 2) * 800 ≤ (i 0).val ∧ (i 0).val < win0_3.index t0_0 (0 : Fin 2) * 800 + 800
    have h : (i 0).val < 800 := (i 0).isLt
    rw [e0]; omega
  | ⟨1, _⟩ =>
    show win0_3.index t0_0 (1 : Fin 2) * 512 ≤ (i 1).val ∧ (i 1).val < win0_3.index t0_0 (1 : Fin 2) * 512 + 512
    have h : (i 1).val < 512 := (i 1).isLt
    rw [e1]; omega

/-- After the first launch its output array holds the stored value of the three arrays it was entered with. -/
theorem encFinal : (dat0 V c).arrAt 3 cfg0.N = k0_pay1 (V c main_v0) (V c main_v2) (V c main_arg3) :=
  (dat0 V c).arrAt_eq_of_cover 3 _ (fun t _ => encFlushed V c t) encCover

/-! ## The predictor's projection (the second launch) -/

/-- Every block index of the second launch is zero. -/
theorem prdIdx : ∀ t : Fin cfg1.N, win1_0.index t (0 : Fin 2) = 0 ∧ win1_0.index t (1 : Fin 2) = 0
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 :=
  (by decide +kernel : ∀ t : Fin grid1.N, _)

/-- The point's blocks are the arrays themselves. -/
theorem prdBlk0 (t : Fin cfg1.N) : iblk1 V c 0 t = V c main_v5 := by
  obtain ⟨e0, e1, -⟩ := prdIdx t
  funext y
  show V c main_v5 (((cfg1.win 0).blk t).view.emb y) = V c main_v5 y
  refine congrArg _ (funext fun a => Fin.ext ?_)
  match a with
  | ⟨0, _⟩ => show win1_0.index t (0 : Fin 2) * 400 + 1 * (y 0).val = (y 0).val; rw [e0]; omega
  | ⟨1, _⟩ => show win1_0.index t (1 : Fin 2) * 512 + 1 * (y 1).val = (y 1).val; rw [e1]; omega
theorem prdBlk1 (t : Fin cfg1.N) : iblk1 V c 1 t = V c main_v7 := by
  obtain ⟨-, -, e0, e1, -⟩ := prdIdx t
  funext y
  show V c main_v7 (((cfg1.win 1).blk t).view.emb y) = V c main_v7 y
  refine congrArg _ (funext fun a => Fin.ext ?_)
  match a with
  | ⟨0, _⟩ => show win1_1.index t (0 : Fin 2) * 512 + 1 * (y 0).val = (y 0).val; rw [e0]; omega
  | ⟨1, _⟩ => show win1_1.index t (1 : Fin 2) * 512 + 1 * (y 1).val = (y 1).val; rw [e1]; omega
theorem prdBlk2 (t : Fin cfg1.N) : iblk1 V c 2 t = V c main_arg5 := by
  obtain ⟨-, -, -, -, e0, -⟩ := prdIdx t
  funext y
  show V c main_arg5 (((cfg1.win 2).blk t).view.emb y) = V c main_arg5 y
  refine congrArg _ (funext fun a => Fin.ext ?_)
  match a with
  | ⟨0, _⟩ => show win1_2.index t (0 : Fin 1) * 512 + 1 * (y 0).val = (y 0).val; rw [e0]; omega

/-- What the point writes back is the stored value of the three arrays, read through the (whole) output block. -/
theorem prdFlushed (t : Fin cfg1.N) :
    (dat1 V c).flushed 3 t = ((cfg1.win 3).blk t).view.read (Elt F) (k1_pay1 (V c main_v5) (V c main_v7) (V c main_arg5)) := by
  show (cfg1.win 3).cut (grid1.coords t) ((dat1 V c).after 3 t) = _
  rw [after1_3]
  unfold out1_3
  rw [View.canon_unit_zero zero2]
  simp only [View.ld_unit_zero (S := S400x512) zero2, View.ld_unit_zero (S := S512x512) zero2, View.ld_unit_zero (S := S512) zero1]
  rw [prdBlk0, prdBlk1, prdBlk2]
  obtain ⟨-, -, -, -, -, e0, e1⟩ := prdIdx t
  funext y
  show k1_pay1 (V c main_v5) (V c main_v7) (V c main_arg5) y = k1_pay1 (V c main_v5) (V c main_v7) (V c main_arg5) (((cfg1.win 3).blk t).view.emb y)
  refine congrArg _ (funext fun a => Fin.ext ?_)
  match a with
  | ⟨0, _⟩ => show (y 0).val = win1_3.index t (0 : Fin 2) * 400 + 1 * (y 0).val; rw [e0]; omega
  | ⟨1, _⟩ => show (y 1).val = win1_3.index t (1 : Fin 2) * 512 + 1 * (y 1).val; rw [e1]; omega

/-- The one point's block covers the output array. -/
theorem prdCover (i : S400x512.Idx) :
    ∃ t : Fin cfg1.N, (cfg1.win 3).flush t = true ∧ i ∈ ((cfg1.win 3).blk t).view.set := by
  refine ⟨t1_0, flush1_3 t1_0, ?_⟩
  obtain ⟨-, -, -, -, -, e0, e1⟩ := prdIdx t1_0
  show i ∈ ((View.whole main_v8).slice (win1_3.rect t1_0)).set
  rw [View.set_slice_whole, Rect.mem_set_unit]
  intro a
  match a with
  | ⟨0, _⟩ =>
    show win1_3.index t1_0 (0 : Fin 2) * 400 ≤ (i 0).val ∧ (i 0).val < win1_3.index t1_0 (0 : Fin 2) * 400 + 400
    have h : (i 0).val < 400 := (i 0).isLt
    rw [e0]; omega
  | ⟨1, _⟩ =>
    show win1_3.index t1_0 (1 : Fin 2) * 512 ≤ (i 1).val ∧ (i 1).val < win1_3.index t1_0 (1 : Fin 2) * 512 + 512
    have h : (i 1).val < 512 := (i 1).isLt
    rw [e1]; omega

/-- After the second launch its output array holds the stored value of the three arrays it was entered with. -/
theorem prdFinal : (dat1 V c).arrAt 3 cfg1.N = k1_pay1 (V c main_v5) (V c main_v7) (V c main_arg5) :=
  (dat1 V c).arrAt_eq_of_cover 3 _ (fun t _ => prdFlushed V c t) prdCover

end Cert.KernelIdeal.JointValue

end
-- ==== Proof.JoinPayload.lean ====
/-
  The join kernel's stored value at an entry.

  At a grid point the kernel holds 40 encoder rows e[i, ·], the 100 predictor rows p[q, ·] of the same batch entry,
  a 512 × 256 slab of the vocabulary weight and the matching 256 bias entries.  It forms tanh (e[i, d] + p[q, d]) for
  every pair (i, q) by stretching each operand along the other's axis, lays the 40 × 100 pairs out as 4000 rows
  (pair (i, q) is row 100·i + q), multiplies by the slab into the zero accumulator, adds the bias along rows and
  folds the 4000 rows back into 40 × 100.  So entry (i, q, j) of what it stores is
      (Σ_d tanh (e[i, d] + p[q, d]) · slab[d, j]) + bias[j].
-/
import proofs.«158839_j84567906058998_1_alg».proof.Proof.Gen.KernelIdeal.Skeleton
import proofs.«158839_j84567906058998_1_alg».proof.Proof.LibPlainProduct
import Idealize.ShloMosaic.Lib.Pipeline.Value
import Idealize.ShloMosaic.Lib.ValueLayout

noncomputable section

open scoped BigOperators

namespace Cert.KernelIdeal.JointValue

open Cert.KernelIdeal Cert.KernelIdeal.Gen Idealize.ShloMosaic Idealize.ShloMosaic.ValueIdx

variable {α : Type}

/-! ## The layout steps, each read at coordinates -/

/-- Inserting a unit axis between the rows and the features of a 40 × 512 array. -/
theorem insertMid_apply (x : S40x512.Idx → α) (h : S40x512.ShapeCasts S40x1x512) (i : Fin 40) (u : Fin 1) (d : Fin 512) :
    shapeCast S40x1x512 x h (ix3 i u d) = x (ix2 i d) :=
  shapeCast_apply x h _ _ (by
    have hu : u.val = 0 := by omega
    rw [Shape.rowMajor_val_two, Shape.rowMajor_val_three]
    show i.val * 512 + d.val = (i.val * 1 + u.val) * 512 + d.val
    rw [hu, Nat.mul_one, Nat.add_zero])

/-- Copying each encoder row along the new predictor axis. -/
theorem stretchMid_apply (x : S40x1x512.Idx → α) (h : S40x1x512.Broadcasts S40x100x512) (i : Fin 40) (q : Fin 100) (d : Fin 512) :
    broadcastTo S40x100x512 x h (ix3 i q d) = x (ix3 i (0 : Fin 1) d) := by
  refine broadcastTo_apply x h (ix3 i q d) (ix3 i (0 : Fin 1) d) fun ax => ?_
  match ax with
  | ⟨0, _⟩ => show i.val = if (40 : ℕ) = 1 then 0 else i.val; rw [if_neg (by decide)]
  | ⟨1, _⟩ => show 0 = if (1 : ℕ) = 1 then 0 else q.val; rw [if_pos rfl]
  | ⟨2, _⟩ => show d.val = if (512 : ℕ) = 1 then 0 else d.val; rw [if_neg (by decide)]

/-- Copying the predictor rows along the new encoder axis. -/
theorem stretchLead_apply (x : S1x100x512.Idx → α) (h : S1x100x512.Broadcasts S40x100x512) (i : Fin 40) (q : Fin 100) (d : Fin 512) :
    broadcastTo S40x100x512 x h (ix3 i q d) = x (ix3 (0 : Fin 1) q d) := by
  refine broadcastTo_apply x h (ix3 i q d) (ix3 (0 : Fin 1) q d) fun ax => ?_
  match ax with
  | ⟨0, _⟩ => show 0 = if (1 : ℕ) = 1 then 0 else i.val; rw [if_pos rfl]
  | ⟨1, _⟩ => show q.val = if (100 : ℕ) = 1 then 0 else q.val; rw [if_neg (by decide)]
  | ⟨2, _⟩ => show d.val = if (512 : ℕ) = 1 then 0 else d.val; rw [if_neg (by decide)]

/-- Laying the 40 × 100 pairs out as 4000 rows: pair (i, q) is row 100·i + q. -/
theorem pairsToRows_apply (x : S40x100x512.Idx → α) (h : S40x100x512.ShapeCasts S4000x512) (r : Fin 4000) (i : Fin 40) (q : Fin 100)
    (d : Fin 512) (hr : r.val = 100 * i.val + q.val) : shapeCast S4000x512 x h (ix2 r d) = x (ix3 i q d) :=
  shapeCast_apply x h _ _ (by
    rw [Shape.rowMajor_val_two, Shape.rowMajor_val_three]
    show (i.val * 100 + q.val) * 512 + d.val = r.val * 512 + d.val
    rw [hr, Nat.mul_comm 100])

/-- Folding the 4000 rows back into 40 × 100. -/
theorem rowsToPairs_apply (x : S4000x256.Idx → α) (h : S4000x256.ShapeCasts S40x100x256) (r : Fin 4000) (i : Fin 40) (q : Fin 100)
    (j : Fin 256) (hr : r.val = 100 * i.val + q.val) : shapeCast S40x100x256 x h (ix3 i q j) = x (ix2 r j) :=
  shapeCast_apply x h _ _ (by
    rw [Shape.rowMajor_val_two, Shape.rowMajor_val_three]
    show r.val * 256 + j.val = (i.val * 100 + q.val) * 256 + j.val
    rw [hr, Nat.mul_comm 100])

/-! ## The product's dimension record -/

theorem dot4000_l0 (j : S4000x256.Idx) (q : dot_S4000x512_S512x256_S4000x256_1_0_0_1_n_n.contr.Idx) :
    (dot_S4000x512_S512x256_S4000x256_1_0_0_1_n_n.lhsIdx j q 0).val = (j 0).val := by
  unfold DotDims.lhsIdx
  rw [dif_neg (show ¬(0 : Fin S4000x512.rank) ∈ dot_S4000x512_S512x256_S4000x256_1_0_0_1_n_n.lhsBatch by decide),
    dif_pos (show (0 : Fin S4000x512.rank) ∈ dot_S4000x512_S512x256_S4000x256_1_0_0_1_n_n.lhsNonContracting by decide)]
  rfl
theorem dot4000_r1 (j : S4000x256.Idx) (q : dot_S4000x512_S512x256_S4000x256_1_0_0_1_n_n.contr.Idx) :
    (dot_S4000x512_S512x256_S4000x256_1_0_0_1_n_n.rhsIdx j q 1).val = (j 1).val := by
  unfold DotDims.rhsIdx
  rw [dif_neg (show ¬(1 : Fin S512x256.rank) ∈ dot_S4000x512_S512x256_S4000x256_1_0_0_1_n_n.rhsBatch by decide),
    dif_pos (show (1 : Fin S512x256.rank) ∈ dot_S4000x512_S512x256_S4000x256_1_0_0_1_n_n.rhsNonContracting by decide)]
  rfl

/-! ## The stored value -/

/-- Entry (i, q, j) of what one grid point of the join kernel stores. -/
theorem join_apply (x0 : Vec Ideal S1x40x512 .f32) (x1 : Vec Ideal S1x100x512 .f32) (x2 : Vec Ideal S512x256 .bf16)
    (x3 : Vec Ideal S256 .f32) (u : Fin 1) (i : Fin 40) (q : Fin 100) (j : Fin 256) :
    k2_pay1 (F := Ideal) x0 x1 x2 x3 (ix4 u i q j)
      = (∑ d : Fin 512, Ideal.tanh (x0 (ix3 (0 : Fin 1) i d) + x1 (ix3 (0 : Fin 1) q d)) * x2 (ix2 d j)) + x3 (ix1 j) := by
  obtain ⟨r, hr⟩ : ∃ r : Fin 4000, r.val = 100 * i.val + q.val := ⟨⟨100 * i.val + q.val, by omega⟩, rfl⟩
  unfold k2_pay1
  rw [shapeCast_abc_1abc_apply, rowsToPairs_apply _ _ r i q j hr, addf_apply]
  refine congrArg₂ (· + ·) ?_ ?_
  · refine (Cert.PlainProduct.matmul_zero_apply dot_S4000x512_S512x256_S4000x256_1_0_0_1_n_n none rfl rfl
      dot4000_l0 (fun j q => dot_S4000x512_S512x256_S4000x256_1_0_0_1_n_n.lhsIdx_val_of_single rfl j q)
      (fun j q => dot_S4000x512_S512x256_S4000x256_1_0_0_1_n_n.rhsIdx_val_of_single rfl j q) dot4000_r1 _ _ r j).trans ?_
    refine Finset.sum_congr rfl fun d _ => ?_
    rw [shapeCast_self, pairsToRows_apply _ _ r i q d hr, truncf_apply]
    refine congrArg (· * x2 (ix2 d j)) ?_
    have tanh_at : ∀ (v : FVec Ideal S40x100x512 .f32) (k : S40x100x512.Idx), tanh v k = Ideal.tanh (v k) := fun _ _ => rfl
    rw [tanh_at, addf_apply, stretchMid_apply, stretchLead_apply, insertMid_apply, shapeCast_1ab_ab_apply, shapeCast_ab_1ab_apply,
      shapeCast_1ab_ab_apply]
  · rw [broadcastTo_1b_ab_apply, shapeCast_a_1a_apply]

end Cert.KernelIdeal.JointValue

end
-- ==== Proof.JointSpec.lean ====
/-
  The transducer joint as one function of its eight argument arrays, on the extended reals.

  An encoder sequence x [4, 200, 512] and a predictor sequence y [4, 100, 512] are each projected by a linear map
  with bias: row (b, t) of x goes to the vector d ↦ (Σ_e x[b, t, e] · w[d, e]) + β[d], and likewise for y.  The
  joint adds an encoder row and a predictor row of one batch entry, takes the hyperbolic tangent entry by entry,
  and projects to the vocabulary:
      out[b, t, u, v] = (Σ_d tanh (enc[b, t, d] + prd[b, u, d]) · W[v, d]) + γ[v].
  Nothing here knows a program: both sides of the certificate are shown to be this function.
-/
import Idealize.ShloMosaic.Lib.ValueIdx
import Idealize.ShloMosaic.PureOps.Ideal

noncomputable section

open scoped BigOperators

namespace Cert.Joint

open Idealize.ShloMosaic Idealize.ShloMosaic.ValueIdx

/-- A linear map with bias applied to row (b, r) of a stack of n-row matrices: entry d of the image is the inner
    product of the row with row d of the weight, plus the bias at d. -/
def proj {n : ℕ} (x : (⟨3, ![4, n, 512]⟩ : Shape).Idx → EReal) (w : (⟨2, ![512, 512]⟩ : Shape).Idx → EReal)
    (β : (⟨1, ![512]⟩ : Shape).Idx → EReal) (b : Fin 4) (r : Fin n) (d : Fin 512) : EReal :=
  (∑ e : Fin 512, x (ix3 b r e) * w (ix2 d e)) + β (ix1 d)

/-- The joint over projected rows: for encoder rows `enc` and predictor rows `prd` given as functions of
    (batch, position, feature), a vocabulary weight read as (feature, word) ↦ weight, and a bias over words. -/
def jointOf (enc : Fin 4 → Fin 200 → Fin 512 → EReal) (prd : Fin 4 → Fin 100 → Fin 512 → EReal)
    (wt : Fin 512 → Fin 2048 → EReal) (γ : Fin 2048 → EReal) :
    (⟨4, ![4, 200, 100, 2048]⟩ : Shape).Idx → EReal := fun i =>
  (∑ d : Fin 512, Ideal.tanh (enc (i 0) (i 1) d + prd (i 0) (i 2) d) * wt d (i 3)) + γ (i 3)

/-- The whole function of the eight arguments. -/
def joint (x : (⟨3, ![4, 200, 512]⟩ : Shape).Idx → EReal) (y : (⟨3, ![4, 100, 512]⟩ : Shape).Idx → EReal)
    (w : (⟨2, ![512, 512]⟩ : Shape).Idx → EReal) (β : (⟨1, ![512]⟩ : Shape).Idx → EReal)
    (w' : (⟨2, ![512, 512]⟩ : Shape).Idx → EReal) (β' : (⟨1, ![512]⟩ : Shape).Idx → EReal)
    (W : (⟨2, ![2048, 512]⟩ : Shape).Idx → EReal) (γ : (⟨1, ![2048]⟩ : Shape).Idx → EReal) :
    (⟨4, ![4, 200, 100, 2048]⟩ : Shape).Idx → EReal :=
  jointOf (proj x w β) (proj y w' β') (fun d v => W (ix2 v d)) (fun v => γ (ix1 v))

end Cert.Joint

end
-- ==== Proof.JoinRegion.lean ====
/-
  What the join launch leaves in the output array.

  The grid is 4 × 5 × 8: a point (b, s, k) takes batch entry b, the 40 encoder rows 40·s … 40·s + 39 of it, all 100
  predictor rows of it, and columns 256·k … 256·k + 255 of the vocabulary weight and bias; it writes the tile
  [b, 40·s …, all u, 256·k …] of the output.  The tiles are disjoint and fill the array (200 = 5 · 40, 2048 = 8 · 256),
  and what a point stores at (i, q, j) of its tile is the joint at (b, 40·s + i, q, 256·k + j) of the arrays the launch
  was entered with.  So the output array ends as `Cert.Joint.jointOf` of those four arrays.
-/
import proofs.«158839_j84567906058998_1_alg».proof.Proof.Gen.KernelIdeal.Frame
import proofs.«158839_j84567906058998_1_alg».proof.Proof.JoinPayload
import proofs.«158839_j84567906058998_1_alg».proof.Proof.JointSpec
import Idealize.ShloMosaic.Lib.Pipeline.Value

set_option maxRecDepth 16384

noncomputable section

open scoped BigOperators

namespace Cert.KernelIdeal.JointValue

open Cert.KernelIdeal Cert.KernelIdeal.Gen Idealize.ShloMosaic Idealize.ShloMosaic.TcCoe Idealize.SL.Sem
open Idealize.ShloMosaic.ValueIdx Cert.Joint
open Idealize.ShloMosaic.Pipeline (Dat)

variable (V : (c : Dev nD) → (b : Ref sig .tc) → Buf (Elt Ideal) ((c : Thread nD τ).loc b)) (c : Dev nD)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The joint of the four arrays the launch is entered with. -/
abbrev joinG : S4x200x100x2048.Idx → EReal :=
  jointOf (fun b r d => V c main_v4 (ix3 b r d)) (fun b u d => V c main_v9 (ix3 b u d))
    (fun d v => V c main_v11 (ix2 d v)) (fun v => V c main_arg7 (ix1 v))

/-- The block indices over the grid: each input block sits where the output tile says — the encoder rows at the tile's
    batch entry and row band, the predictor rows at its batch entry, the weight slab and bias at its column band. -/
theorem joinIdx : ∀ t : Fin cfg2.N,
    win2_4.index t (2 : Fin 4) = 0
    ∧ win2_0.index t (0 : Fin 3) = win2_4.index t (0 : Fin 4) ∧ win2_0.index t (1 : Fin 3) = win2_4.index t (1 : Fin 4)
    ∧ win2_0.index t (2 : Fin 3) = 0
    ∧ win2_1.index t (0 : Fin 3) = win2_4.index t (0 : Fin 4) ∧ win2_1.index t (1 : Fin 3) = 0 ∧ win2_1.index t (2 : Fin 3) = 0
    ∧ win2_2.index t (0 : Fin 2) = 0 ∧ win2_2.index t (1 : Fin 2) = win2_4.index t (3 : Fin 4)
    ∧ win2_3.index t (0 : Fin 1) = win2_4.index t (3 : Fin 4)
    ∧ win2_4.index t (0 : Fin 4) < 4 ∧ win2_4.index t (1 : Fin 4) < 5 ∧ win2_4.index t (3 : Fin 4) < 8 :=
  (by decide +kernel : ∀ t : Fin grid2.N, _)

/-- Every tile is some point's. -/
theorem joinOnto : ∀ (b : Fin 4) (s : Fin 5) (k : Fin 8), ∃ t : Fin cfg2.N, win2_4.index t = ![b.val, s.val, 0, k.val] :=
  (by decide +kernel : ∀ (b : Fin 4) (s : Fin 5) (k : Fin 8), ∃ t : Fin grid2.N, win2_4.index t = ![b.val, s.val, 0, k.val])

/-- What point t writes back is its tile of the joint. -/
theorem joinFlushed (t : Fin cfg2.N) :
    (dat2 V c).flushed 4 t = ((cfg2.win 4).blk t).view.read (Elt Ideal) (joinG V c) := by
  show (cfg2.win 4).cut (grid2.coords t) ((dat2 V c).after 4 t) = _
  rw [after2_4]
  unfold out2_4
  rw [View.canon_unit_zero zeros4]
  simp only [View.ld_unit_zero (S := S1x40x512) zeros3, View.ld_unit_zero (S := S1x100x512) zeros3,
    View.ld_unit_zero (S := S512x256) zeros2, View.ld_unit_zero (S := S256) zeros1]
  obtain ⟨o2, a0, a1, a2, p0, p1, p2, w0, w1, g0, -, -, -⟩ := joinIdx t
  funext y
  obtain ⟨u, i, q, j, rfl⟩ : ∃ (u : Fin 1) (i : Fin 40) (q : Fin 100) (j : Fin 256), y = ix4 u i q j :=
    ⟨y 0, y 1, y 2, y 3, eq_ix4 y⟩
  have hu : u.val = 0 := by omega
  refine (join_apply (iblk2 V c 0 t) (iblk2 V c 1 t) (iblk2 V c 2 t) (iblk2 V c 3 t) u i q j).trans ?_
  show _ = jointOf (fun b r d => V c main_v4 (ix3 b r d)) (fun b u d => V c main_v9 (ix3 b u d))
    (fun d v => V c main_v11 (ix2 d v)) (fun v => V c main_arg7 (ix1 v)) (((cfg2.win 4).blk t).view.emb (ix4 u i q j))
  unfold jointOf
  refine congrArg₂ (· + ·) (Finset.sum_congr rfl fun d _ => ?_) ?_
  · refine congrArg₂ (· * ·) (congrArg Ideal.tanh (congrArg₂ (· + ·) ?_ ?_)) ?_
    · show V c main_v4 (((cfg2.win 0).blk t).view.emb (ix3 (0 : Fin 1) i d)) = V c main_v4 _
      refine congrArg _ (funext fun a => Fin.ext ?_)
      match a with
      | ⟨0, _⟩ => show win2_0.index t (0 : Fin 3) * 1 + 1 * (0 : Fin 1).val = win2_4.index t (0 : Fin 4) * 1 + 1 * u.val; rw [a0, hu]; rfl
      | ⟨1, _⟩ => show win2_0.index t (1 : Fin 3) * 40 + 1 * i.val = win2_4.index t (1 : Fin 4) * 40 + 1 * i.val; rw [a1]
      | ⟨2, _⟩ => show win2_0.index t (2 : Fin 3) * 512 + 1 * d.val = d.val; rw [a2]; omega
    · show V c main_v9 (((cfg2.win 1).blk t).view.emb (ix3 (0 : Fin 1) q d)) = V c main_v9 _
      refine congrArg _ (funext fun a => Fin.ext ?_)
      match a with
      | ⟨0, _⟩ => show win2_1.index t (0 : Fin 3) * 1 + 1 * (0 : Fin 1).val = win2_4.index t (0 : Fin 4) * 1 + 1 * u.val; rw [p0, hu]; rfl
      | ⟨1, _⟩ => show win2_1.index t (1 : Fin 3) * 100 + 1 * q.val = win2_4.index t (2 : Fin 4) * 100 + 1 * q.val; rw [p1, o2]
      | ⟨2, _⟩ => show win2_1.index t (2 : Fin 3) * 512 + 1 * d.val = d.val; rw [p2]; omega
    · show V c main_v11 (((cfg2.win 2).blk t).view.emb (ix2 d j)) = V c main_v11 _
      refine congrArg _ (funext fun a => Fin.ext ?_)
      match a with
      | ⟨0, _⟩ => show win2_2.index t (0 : Fin 2) * 512 + 1 * d.val = d.val; rw [w0]; omega
      | ⟨1, _⟩ => show win2_2.index t (1 : Fin 2) * 256 + 1 * j.val = win2_4.index t (3 : Fin 4) * 256 + 1 * j.val; rw [w1]
  · show V c main_arg7 (((cfg2.win 3).blk t).view.emb (ix1 j)) = V c main_arg7 _
    refine congrArg _ (funext fun a => Fin.ext ?_)
    match a with
    | ⟨0, _⟩ => show win2_3.index t (0 : Fin 1) * 256 + 1 * j.val = win2_4.index t (3 : Fin 4) * 256 + 1 * j.val; rw [g0]

/-- An index of the output array lies in point t's tile iff each coordinate lies in the tile's range on its axis. -/
theorem mem_tile (t : Fin cfg2.N) (i : S4x200x100x2048.Idx) :
    i ∈ ((cfg2.win 4).blk t).view.set ↔ ∀ a : Fin 4, win2_4.index t a * S1x40x100x256.size a ≤ (i a).val
      ∧ (i a).val < win2_4.index t a * S1x40x100x256.size a + S1x40x100x256.size a := by
  show i ∈ ((View.whole main_v12).slice (win2_4.rect t)).set ↔ _
  rw [View.set_slice_whole, Rect.mem_set_unit]
  exact Iff.rfl

/-- The tiles cover the output array: index (b, r, u, v) lies in the tile of the point (b, r / 40, v / 256). -/
theorem joinCover (i : S4x200x100x2048.Idx) :
    ∃ t : Fin cfg2.N, (cfg2.win 4).flush t = true ∧ i ∈ ((cfg2.win 4).blk t).view.set := by
  have h0 : (i 0).val < 4 := (i 0).isLt
  have h1 : (i 1).val < 200 := (i 1).isLt
  have h2 : (i 2).val < 100 := (i 2).isLt
  have h3 : (i 3).val < 2048 := (i 3).isLt
  obtain ⟨t, ht⟩ := joinOnto ⟨(i 0).val, h0⟩ ⟨(i 1).val / 40, by omega⟩ ⟨(i 3).val / 256, by omega⟩
  have q0 : win2_4.index t (0 : Fin 4) = (i 0).val := congrFun ht 0
  have q1 : win2_4.index t (1 : Fin 4) = (i 1).val / 40 := congrFun ht 1
  have q2 : win2_4.index t (2 : Fin 4) = 0 := congrFun ht 2
  have q3 : win2_4.index t (3 : Fin 4) = (i 3).val / 256 := congrFun ht 3
  refine ⟨t, flush2_4 t, ?_⟩
  rw [mem_tile]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 40 ≤ (i 1).val ∧ (i 1).val < win2_4.index t (1 : Fin 4) * 40 + 40; omega
  | ⟨2, _⟩ => show win2_4.index t (2 : Fin 4) * 100 ≤ (i 2).val ∧ (i 2).val < win2_4.index t (2 : Fin 4) * 100 + 100; omega
  | ⟨3, _⟩ => show win2_4.index t (3 : Fin 4) * 256 ≤ (i 3).val ∧ (i 3).val < win2_4.index t (3 : Fin 4) * 256 + 256; omega

/-- After the join launch the output array holds the joint of the four arrays the launch was entered with. -/
theorem joinFinal : (dat2 V c).arrAt 4 cfg2.N = joinG V c :=
  (dat2 V c).arrAt_eq_of_cover 4 _ (fun t _ => joinFlushed V c t) joinCover

end Cert.KernelIdeal.JointValue

end
-- ==== Proof.Boundaries.lean ====
/-
  The kernel's result array as the joint of its eight arguments.

  Between the launches the program only re-lays arrays out: it merges the batch and position axes of each sequence
  before its projection launch and splits them again after it (row 200·b + t, resp. 100·b + u, is position t, resp. u,
  of batch entry b), transposes each weight and narrows it to bf16 (the identity on the extended reals).  No host line
  and no launch writes an argument.  Reading the arrays each launch is entered with back through these lines:
    * the first launch is entered with the merged encoder sequence, the transposed encoder weight and the encoder
      bias, so its output, split again, is the projected encoder rows;
    * the second likewise for the predictor;
    * the third is entered with those two outputs, the transposed vocabulary weight and the vocabulary bias, so its
      output is the joint of the eight arguments.
-/
import proofs.«158839_j84567906058998_1_alg».proof.Proof.Gen.KernelIdeal.Frame
import proofs.«158839_j84567906058998_1_alg».proof.Proof.ProjPayload
import proofs.«158839_j84567906058998_1_alg».proof.Proof.ProjRegion
import proofs.«158839_j84567906058998_1_alg».proof.Proof.JoinRegion
import proofs.«158839_j84567906058998_1_alg».proof.Proof.JointSpec
import Idealize.ShloMosaic.Lib.StableHlo.Run
import Idealize.ShloMosaic.Lib.ValueLayout

set_option maxRecDepth 16384

noncomputable section

open scoped BigOperators

namespace Cert.KernelIdeal.JointValue

open Cert.KernelIdeal Cert.KernelIdeal.Gen Idealize.ShloMosaic Idealize.ShloMosaic.TcCoe Idealize.SL.Sem
open Idealize.ShloMosaic.StableHlo Idealize.ShloMosaic.ValueIdx Cert.Joint

/-! ## Merging and splitting the batch and position axes, read at coordinates -/

section Layout
variable {α : Type}

theorem mergeEnc_apply (x : S4x200x512.Idx → α) (h : S4x200x512.ShapeCasts S800x512) (n : Fin 800) (b : Fin 4) (r : Fin 200)
    (e : Fin 512) (hn : n.val = 200 * b.val + r.val) : shapeCast S800x512 x h (ix2 n e) = x (ix3 b r e) :=
  shapeCast_apply x h _ _ (by
    rw [Shape.rowMajor_val_two, Shape.rowMajor_val_three]
    show (b.val * 200 + r.val) * 512 + e.val = n.val * 512 + e.val
    rw [hn, Nat.mul_comm 200])
theorem splitEnc_apply (x : S800x512.Idx → α) (h : S800x512.ShapeCasts S4x200x512) (n : Fin 800) (b : Fin 4) (r : Fin 200)
    (d : Fin 512) (hn : n.val = 200 * b.val + r.val) : shapeCast S4x200x512 x h (ix3 b r d) = x (ix2 n d) :=
  shapeCast_apply x h _ _ (by
    rw [Shape.rowMajor_val_two, Shape.rowMajor_val_three]
    show n.val * 512 + d.val = (b.val * 200 + r.val) * 512 + d.val
    rw [hn, Nat.mul_comm 200])
theorem mergePrd_apply (x : S4x100x512.Idx → α) (h : S4x100x512.ShapeCasts S400x512) (n : Fin 400) (b : Fin 4) (r : Fin 100)
    (e : Fin 512) (hn : n.val = 100 * b.val + r.val) : shapeCast S400x512 x h (ix2 n e) = x (ix3 b r e) :=
  shapeCast_apply x h _ _ (by
    rw [Shape.rowMajor_val_two, Shape.rowMajor_val_three]
    show (b.val * 100 + r.val) * 512 + e.val = n.val * 512 + e.val
    rw [hn, Nat.mul_comm 100])
theorem splitPrd_apply (x : S400x512.Idx → α) (h : S400x512.ShapeCasts S4x100x512) (n : Fin 400) (b : Fin 4) (r : Fin 100)
    (d : Fin 512) (hn : n.val = 100 * b.val + r.val) : shapeCast S4x100x512 x h (ix3 b r d) = x (ix2 n d) :=
  shapeCast_apply x h _ _ (by
    rw [Shape.rowMajor_val_two, Shape.rowMajor_val_three]
    show n.val * 512 + d.val = (b.val * 100 + r.val) * 512 + d.val
    rw [hn, Nat.mul_comm 100])

end Layout

variable (m : (ℓ : Loc nD τ sig) → Buf (Elt Ideal) ℓ) (ρ : Dev nD → PrngReg) (c : Dev nD)

/-! ## The arguments are where they were launched, at every boundary that reads one -/

theorem atExit0 (b : Ref sig .tc) (hb : ∀ w, Pipeline.arrRef spec0 w ≠ b)
    (h0 : W1 m ρ c (Proc.devRef .tc b) = m ((c : Thread nD τ).loc b)) :
    W2 m ρ c (Proc.devRef .tc b) = m ((c : Thread nD τ).loc b) := (W2_of_ne m ρ c b hb).trans h0
theorem atExit0_arg1 : W2 m ρ c (Proc.devRef .tc main_arg1) = m ((c : Thread nD τ).loc main_arg1) :=
  atExit0 m ρ c main_arg1 (by decide) (by dsimp only [W1, hostOps0]; after_results <;> rfl)
theorem atExit0_arg4 : W2 m ρ c (Proc.devRef .tc main_arg4) = m ((c : Thread nD τ).loc main_arg4) :=
  atExit0 m ρ c main_arg4 (by decide) (by dsimp only [W1, hostOps0]; after_results <;> rfl)
theorem atExit0_arg5 : W2 m ρ c (Proc.devRef .tc main_arg5) = m ((c : Thread nD τ).loc main_arg5) :=
  atExit0 m ρ c main_arg5 (by decide) (by dsimp only [W1, hostOps0]; after_results <;> rfl)
theorem atExit0_arg6 : W2 m ρ c (Proc.devRef .tc main_arg6) = m ((c : Thread nD τ).loc main_arg6) :=
  atExit0 m ρ c main_arg6 (by decide) (by dsimp only [W1, hostOps0]; after_results <;> rfl)
theorem atExit0_arg7 : W2 m ρ c (Proc.devRef .tc main_arg7) = m ((c : Thread nD τ).loc main_arg7) :=
  atExit0 m ρ c main_arg7 (by decide) (by dsimp only [W1, hostOps0]; after_results <;> rfl)
theorem atExit1_arg6 : W4 m ρ c (Proc.devRef .tc main_arg6) = m ((c : Thread nD τ).loc main_arg6) :=
  (W4_of_ne m ρ c main_arg6 (by decide)).trans
    ((by dsimp only [W3, hostOps1]; after_results <;> rfl :
      W3 m ρ c (Proc.devRef .tc main_arg6) = W2 m ρ c (Proc.devRef .tc main_arg6)).trans (atExit0_arg6 m ρ c))
theorem atExit1_arg7 : W4 m ρ c (Proc.devRef .tc main_arg7) = m ((c : Thread nD τ).loc main_arg7) :=
  (W4_of_ne m ρ c main_arg7 (by decide)).trans
    ((by dsimp only [W3, hostOps1]; after_results <;> rfl :
      W3 m ρ c (Proc.devRef .tc main_arg7) = W2 m ρ c (Proc.devRef .tc main_arg7)).trans (atExit0_arg7 m ρ c))

/-! ## What each launch is entered with -/

theorem enter0_x : (V1 m ρ c main_v0 : S800x512.Idx → EReal)
    = shapeCast S800x512 (m ((c : Thread nD τ).loc main_arg0)) shapeCasts_S4x200x512_S800x512 := by
  dsimp only [V1, W1, hostOps0]; after_results; rfl
theorem enter0_w : (V1 m ρ c main_v2 : S512x512.Idx → EReal)
    = truncf (F := Ideal) .bf16 (transpose S512x512 [1, 0] (m ((c : Thread nD τ).loc main_arg2)) transposes_S512x512_S512x512_1_0) bitsLt_bf16_f32 := by
  dsimp only [V1, W1, hostOps0]; after_results <;> rfl
theorem enter0_b : (V1 m ρ c main_arg3 : S512.Idx → EReal) = m ((c : Thread nD τ).loc main_arg3) := by
  dsimp only [V1, W1, hostOps0]; after_results <;> rfl

theorem enter1_x : (V3 m ρ c main_v5 : S400x512.Idx → EReal)
    = shapeCast S400x512 (m ((c : Thread nD τ).loc main_arg1)) shapeCasts_S4x100x512_S400x512 :=
  (by dsimp only [V3, W3, hostOps1]; after_results; rfl :
    (V3 m ρ c main_v5 : S400x512.Idx → EReal)
      = shapeCast S400x512 (W2 m ρ c (Proc.devRef .tc main_arg1)) shapeCasts_S4x100x512_S400x512).trans
    (congrArg (fun x => shapeCast S400x512 x shapeCasts_S4x100x512_S400x512) (atExit0_arg1 m ρ c))
theorem enter1_w : (V3 m ρ c main_v7 : S512x512.Idx → EReal)
    = truncf (F := Ideal) .bf16 (transpose S512x512 [1, 0] (m ((c : Thread nD τ).loc main_arg4)) transposes_S512x512_S512x512_1_0) bitsLt_bf16_f32 :=
  (by dsimp only [V3, W3, hostOps1]; after_results <;> rfl :
    (V3 m ρ c main_v7 : S512x512.Idx → EReal)
      = truncf (F := Ideal) .bf16 (transpose S512x512 [1, 0] (W2 m ρ c (Proc.devRef .tc main_arg4)) transposes_S512x512_S512x512_1_0) bitsLt_bf16_f32).trans
    (congrArg (fun x => truncf (F := Ideal) .bf16 (transpose S512x512 [1, 0] x transposes_S512x512_S512x512_1_0) bitsLt_bf16_f32) (atExit0_arg4 m ρ c))
theorem enter1_b : (V3 m ρ c main_arg5 : S512.Idx → EReal) = m ((c : Thread nD τ).loc main_arg5) :=
  (by dsimp only [V3, W3, hostOps1]; after_results <;> rfl :
    (V3 m ρ c main_arg5 : S512.Idx → EReal) = W2 m ρ c (Proc.devRef .tc main_arg5)).trans (atExit0_arg5 m ρ c)

theorem enter2_e : (V5 m ρ c main_v4 : S4x200x512.Idx → EReal)
    = shapeCast S4x200x512 ((dat0 (V1 m ρ) c).arrAt 3 cfg0.N) shapeCasts_S800x512_S4x200x512 :=
  (by dsimp only [V5, W5, hostOps2]; after_results <;> rfl :
    (V5 m ρ c main_v4 : S4x200x512.Idx → EReal) = W4 m ρ c (Proc.devRef .tc main_v4)).trans
  ((W4_of_ne m ρ c main_v4 (by decide)).trans
  ((by dsimp only [W3, hostOps1]; after_results; rfl :
    (W3 m ρ c (Proc.devRef .tc main_v4) : S4x200x512.Idx → EReal)
      = shapeCast S4x200x512 (W2 m ρ c (Proc.devRef .tc main_v3)) shapeCasts_S800x512_S4x200x512).trans
    (congrArg (fun x => shapeCast S4x200x512 x shapeCasts_S800x512_S4x200x512) (W2_arr m ρ c 3))))
theorem enter2_p : (V5 m ρ c main_v9 : S4x100x512.Idx → EReal)
    = shapeCast S4x100x512 ((dat1 (V3 m ρ) c).arrAt 3 cfg1.N) shapeCasts_S400x512_S4x100x512 :=
  (by dsimp only [V5, W5, hostOps2]; after_results; rfl :
    (V5 m ρ c main_v9 : S4x100x512.Idx → EReal)
      = shapeCast S4x100x512 (W4 m ρ c (Proc.devRef .tc main_v8)) shapeCasts_S400x512_S4x100x512).trans
    (congrArg (fun x => shapeCast S4x100x512 x shapeCasts_S400x512_S4x100x512) (W4_arr m ρ c 3))
theorem enter2_w : (V5 m ρ c main_v11 : S512x2048.Idx → EReal)
    = truncf (F := Ideal) .bf16 (transpose S512x2048 [1, 0] (m ((c : Thread nD τ).loc main_arg6)) transposes_S2048x512_S512x2048_1_0) bitsLt_bf16_f32 :=
  (by dsimp only [V5, W5, hostOps2]; after_results <;> rfl :
    (V5 m ρ c main_v11 : S512x2048.Idx → EReal)
      = truncf (F := Ideal) .bf16 (transpose S512x2048 [1, 0] (W4 m ρ c (Proc.devRef .tc main_arg6)) transposes_S2048x512_S512x2048_1_0) bitsLt_bf16_f32).trans
    (congrArg (fun x => truncf (F := Ideal) .bf16 (transpose S512x2048 [1, 0] x transposes_S2048x512_S512x2048_1_0) bitsLt_bf16_f32) (atExit1_arg6 m ρ c))
theorem enter2_b : (V5 m ρ c main_arg7 : S2048.Idx → EReal) = m ((c : Thread nD τ).loc main_arg7) :=
  (by dsimp only [V5, W5, hostOps2]; after_results <;> rfl :
    (V5 m ρ c main_arg7 : S2048.Idx → EReal) = W4 m ρ c (Proc.devRef .tc main_arg7)).trans (atExit1_arg7 m ρ c)

/-! ## The projected rows, and the result -/

/-- The third launch's first operand at (b, t, d) is the projected encoder row. -/
theorem encRow (b : Fin 4) (r : Fin 200) (d : Fin 512) :
    V5 m ρ c main_v4 (ix3 b r d)
      = proj (m ((c : Thread nD τ).loc main_arg0)) (m ((c : Thread nD τ).loc main_arg2)) (m ((c : Thread nD τ).loc main_arg3)) b r d := by
  obtain ⟨n, hn⟩ : ∃ n : Fin 800, n.val = 200 * b.val + r.val := ⟨⟨200 * b.val + r.val, by omega⟩, rfl⟩
  rw [enter2_e, splitEnc_apply _ _ n b r d hn, encFinal (V1 m ρ) c, lin0_apply, enter0_x, enter0_w, enter0_b]
  unfold proj
  refine congrArg (· + _) (Finset.sum_congr rfl fun e _ => ?_)
  rw [mergeEnc_apply _ _ n b r e hn, truncf_apply, transpose_ix2_apply]

/-- The third launch's second operand at (b, u, d) is the projected predictor row. -/
theorem prdRow (b : Fin 4) (r : Fin 100) (d : Fin 512) :
    V5 m ρ c main_v9 (ix3 b r d)
      = proj (m ((c : Thread nD τ).loc main_arg1)) (m ((c : Thread nD τ).loc main_arg4)) (m ((c : Thread nD τ).loc main_arg5)) b r d := by
  obtain ⟨n, hn⟩ : ∃ n : Fin 400, n.val = 100 * b.val + r.val := ⟨⟨100 * b.val + r.val, by omega⟩, rfl⟩
  rw [enter2_p, splitPrd_apply _ _ n b r d hn, prdFinal (V3 m ρ) c, lin1_apply, enter1_x, enter1_w, enter1_b]
  unfold proj
  refine congrArg (· + _) (Finset.sum_congr rfl fun e _ => ?_)
  rw [mergePrd_apply _ _ n b r e hn, truncf_apply, transpose_ix2_apply]

/-- The third launch's weight operand at (d, v) is the vocabulary weight at (v, d). -/
theorem vocW (d : Fin 512) (v : Fin 2048) : V5 m ρ c main_v11 (ix2 d v) = m ((c : Thread nD τ).loc main_arg6) (ix2 v d) := by
  rw [enter2_w, truncf_apply, transpose_ix2_apply]

/-- THE RESULT: at the last boundary the result array holds the joint of the eight arguments. -/
theorem result_value : (W6 m ρ c (Proc.devRef .tc main_v12) : S4x200x100x2048.Idx → EReal)
    = joint (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W6_arr m ρ c 4).trans ((joinFinal (V5 m ρ) c).trans ?_)
  unfold joint
  have he : (fun b r d => V5 m ρ c main_v4 (ix3 b r d)) = proj (m ((c : Thread nD τ).loc main_arg0)) (m ((c : Thread nD τ).loc main_arg2)) (m ((c : Thread nD τ).loc main_arg3)) :=
    funext fun b => funext fun r => funext fun d => encRow m ρ c b r d
  have hp : (fun b r d => V5 m ρ c main_v9 (ix3 b r d)) = proj (m ((c : Thread nD τ).loc main_arg1)) (m ((c : Thread nD τ).loc main_arg4)) (m ((c : Thread nD τ).loc main_arg5)) :=
    funext fun b => funext fun r => funext fun d => prdRow m ρ c b r d
  have hw : (fun d v => V5 m ρ c main_v11 (ix2 d v)) = fun d v => m ((c : Thread nD τ).loc main_arg6) (ix2 v d) :=
    funext fun d => funext fun v => vocW m ρ c d v
  have hg : (fun v => V5 m ρ c main_arg7 (ix1 v)) = fun v => m ((c : Thread nD τ).loc main_arg7) (ix1 v) :=
    funext fun v => congrFun (enter2_b m ρ c) (ix1 v)
  show jointOf _ _ _ _ = _
  rw [he, hp, hw, hg]

end Cert.KernelIdeal.JointValue

end
-- ==== Proof.RefJoint.lean ====
/-
  The reference computes the joint.

  Read one operation at a time at an output index (b, t, u, v), the reference's last array is
      (Σ_d tanh ((Σ_e x[b,t,e]·w[d,e] + β[d]) + (Σ_e y[b,u,e]·w'[d,e] + β'[d])) · W[v,d]) + γ[v]:
  each einsum is a sum over its one contracted coordinate, each broadcast reads its operand at the coordinates it
  keeps, and the additions and the hyperbolic tangent act entry by entry.  That is the function `Cert.Joint.joint`
  of the eight arguments, term for term; the only work is to name the composed index maps by coordinates.
-/
import proofs.«158839_j84567906058998_1_alg».proof.Proof.Gen.ReferenceIdeal.Read
import proofs.«158839_j84567906058998_1_alg».proof.Proof.JointSpec

noncomputable section

open scoped BigOperators

namespace Cert.ReferenceIdeal.RefValue

open Cert.ReferenceIdeal Cert.ReferenceIdeal.Read Idealize.ShloMosaic Idealize.ShloMosaic.ValueIdx Cert.Joint

variable (i : S4x200x100x2048.Idx) (d e : Fin 512)

/-- The encoder operand of the first einsum, reached from the output index through the vocabulary einsum's left
    index and the two broadcasts that insert and stretch the predictor axis: entry (b, t, e). -/
theorem enc_lhs : lidx_main_v0 (idx_main_v8 (idx_main_v10 (lidx_main_v14 i d))) e = ix3 (i 0) (i 1) e :=
  funext fun a => Fin.ext (by match a with | ⟨0, _⟩ => rfl | ⟨1, _⟩ => rfl | ⟨2, _⟩ => rfl)
theorem enc_rhs : ridx_main_v0 (idx_main_v8 (idx_main_v10 (lidx_main_v14 i d))) e = ix2 d e :=
  funext fun a => Fin.ext (by match a with | ⟨0, _⟩ => rfl | ⟨1, _⟩ => rfl)
theorem enc_bias : idx_main_v1 (idx_main_v2 (idx_main_v8 (idx_main_v10 (lidx_main_v14 i d)))) = ix1 d :=
  funext fun a => Fin.ext (by match a with | ⟨0, _⟩ => rfl)
/-- The predictor operand of the second einsum likewise: entry (b, u, e). -/
theorem prd_lhs : lidx_main_v4 (idx_main_v9 (idx_main_v11 (lidx_main_v14 i d))) e = ix3 (i 0) (i 2) e :=
  funext fun a => Fin.ext (by match a with | ⟨0, _⟩ => rfl | ⟨1, _⟩ => rfl | ⟨2, _⟩ => rfl)
theorem prd_rhs : ridx_main_v4 (idx_main_v9 (idx_main_v11 (lidx_main_v14 i d))) e = ix2 d e :=
  funext fun a => Fin.ext (by match a with | ⟨0, _⟩ => rfl | ⟨1, _⟩ => rfl)
theorem prd_bias : idx_main_v5 (idx_main_v6 (idx_main_v9 (idx_main_v11 (lidx_main_v14 i d)))) = ix1 d :=
  funext fun a => Fin.ext (by match a with | ⟨0, _⟩ => rfl)
/-- The vocabulary weight's row v, column d, and the vocabulary bias at v. -/
theorem voc_rhs : ridx_main_v14 i d = ix2 (i 3) d :=
  funext fun a => Fin.ext (by match a with | ⟨0, _⟩ => rfl | ⟨1, _⟩ => rfl)
theorem voc_bias : idx_main_v15 (idx_main_v16 i) = ix1 (i 3) :=
  funext fun a => Fin.ext (by match a with | ⟨0, _⟩ => rfl)

/-- The reference's result array is the joint of its eight arguments. -/
theorem result_eq (x0 : (⟨S4x200x512, .f32⟩ : BufTy).Contents (Elt Ideal)) (x1 : (⟨S4x100x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S2048x512, .f32⟩ : BufTy).Contents (Elt Ideal)) (x7 : (⟨S2048, .f32⟩ : BufTy).Contents (Elt Ideal)) :
    val_main_v17 (F := Ideal) x0 x1 x2 x3 x4 x5 x6 x7 = joint x0 x1 x2 x3 x4 x5 x6 x7 := by
  funext i
  rw [val_main_v17_apply, val_main_v14_apply, val_main_v16_apply, val_main_v15_apply]
  simp only [val_main_v13_apply, val_main_v12_apply, val_main_v10_apply, val_main_v8_apply, val_main_v3_apply,
    val_main_v0_apply, val_main_v2_apply, val_main_v1_apply, val_main_v11_apply, val_main_v9_apply, val_main_v7_apply,
    val_main_v4_apply, val_main_v6_apply, val_main_v5_apply, Ideal.hostUnary_tanh_def, Ideal.addf_def,
    enc_lhs, enc_rhs, enc_bias, prd_lhs, prd_rhs, prd_bias, voc_rhs, voc_bias]
  rfl

end Cert.ReferenceIdeal.RefValue

end
-- ==== Proof.lean ====
/-
  A transducer joint on three launches against its einsum reference: equal on the extended reals.

  The kernel projects the encoder sequence x [4, 200, 512] and the predictor sequence y [4, 100, 512] by two small launches
  (a bf16 product with bias each: at the ideal values, Σ_e x[b,t,e]·w[d,e] + β[d]), and a third launch on a 4 × 5 × 8 grid forms
  tanh (enc[b,t,d] + prd[b,u,d]) for every pair of positions, multiplies by a slab of the vocabulary weight and adds the bias.
  The reference writes the same three contractions as einsums over the whole arrays.  On the extended reals a change of float
  format is the identity and a product into the zero accumulator is the plain sum, so both programs compute
      out[b,t,u,v] = (Σ_d tanh ((Σ_e x[b,t,e]·w[d,e] + β[d]) + (Σ_e y[b,u,e]·w'[d,e] + β'[d])) · W[v,d]) + γ[v]
  (`Cert.Joint.joint`), the sums taken over the same index sets in the same order: no law of arithmetic is needed beyond the
  definitions, and the precondition is never opened.

  The kernel's side: the program's run with every buffer named at the end (Proof/WholeRun.lean), the arrays each launch is
  entered with read back through the host lines to the arguments and the earlier launches' outputs (Proof/Boundaries.lean), each
  launch's output array as its stored value of those (Proof/ProjRegion.lean, Proof/JoinRegion.lean), and each stored value at an
  entry (Proof/ProjPayload.lean, Proof/JoinPayload.lean).  The reference's side: its generated run, read one operation at a time
  (Proof/RefJoint.lean).  The three frames are the generated ones; the idealization rewrote nothing.
-/
import proofs.«158839_j84567906058998_1_alg».proof.Defs
import proofs.«158839_j84567906058998_1_alg».proof.Proof.Gen.Kernel
import proofs.«158839_j84567906058998_1_alg».proof.Proof.Gen.Kernel.Skeleton
import proofs.«158839_j84567906058998_1_alg».proof.Proof.Gen.Kernel.Launch
import proofs.«158839_j84567906058998_1_alg».proof.Proof.Gen.Kernel.Points
import proofs.«158839_j84567906058998_1_alg».proof.Proof.Gen.Kernel.Frame
import proofs.«158839_j84567906058998_1_alg».proof.Proof.Gen.KernelIdeal
import proofs.«158839_j84567906058998_1_alg».proof.Proof.Gen.KernelIdeal.Skeleton
import proofs.«158839_j84567906058998_1_alg».proof.Proof.Gen.KernelIdeal.Launch
import proofs.«158839_j84567906058998_1_alg».proof.Proof.Gen.KernelIdeal.Points
import proofs.«158839_j84567906058998_1_alg».proof.Proof.Gen.KernelIdeal.Frame
import proofs.«158839_j84567906058998_1_alg».proof.Proof.Gen.ReferenceIdeal
import proofs.«158839_j84567906058998_1_alg».proof.Proof.Gen.ReferenceIdeal.Run
import proofs.«158839_j84567906058998_1_alg».proof.Proof.Gen.ReferenceIdeal.Read
import proofs.«158839_j84567906058998_1_alg».proof.Proof.Gen.Pre_finite_inputs
import proofs.«158839_j84567906058998_1_alg».proof.Proof.WholeRun
import proofs.«158839_j84567906058998_1_alg».proof.Proof.Boundaries
import proofs.«158839_j84567906058998_1_alg».proof.Proof.RefJoint
import Idealize.ShloMosaic.Adequacy
import Idealize.ShloMosaic.Init

noncomputable section

namespace Cert.Proof

open Idealize.ShloMosaic Idealize.ShloMosaic.TcCoe Idealize.SL.Sem Cert.Joint

/-- The three programs run and leave their arguments as launched: the two kernels by their generated frames, the reference by
    its generated run with the result dropped. -/
theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal :=
  fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

section KernelRun
open Cert.KernelIdeal Cert.KernelIdeal.Gen Cert.KernelIdeal.JointValue

/-- The idealized kernel's run: the result array ends at the joint of the eight arguments, and the arguments as launched. -/
theorem kernel_run [Cert.KernelIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v12)
        = joint (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨(h c _ (mem_uc main_v12 (by decide))).trans (result_value m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩)
    (run_all m ρ)

end KernelRun

/-- From memories that agree on the arguments the two idealized programs end with one result array: the kernel's run ends at the
    joint of its arguments, the reference's generated run at its last stage, which is the joint of ITS arguments, and those are the
    kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, kernel_run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7⟩ := hagree c
  rw [(h c).1, Cert.ReferenceIdeal.Read.val_main_v17_eq, Cert.ReferenceIdeal.RefValue.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
